-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8192 : Shape := ⟨2, ![1024, 8192]⟩
abbrev S1700000 : Shape := ⟨1, ![1700000]⟩
abbrev S4096 : Shape := ⟨1, ![4096]⟩
abbrev S1700000x2 : Shape := ⟨2, ![1700000, 2]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S1700000 : S_.BroadcastsInDim S1700000 (![] : Fin 0 → Fin S1700000.rank)
  reducesTo_S1700000_S_d0 : S1700000.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1024x8192 .f32) (main_arg1 : FVec F S1700000 .f32) (main_arg2 : FVec F S4096 .f32) (main_arg3 : IVec S1700000x2 32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S1700000 .f32 := Host.absf main_arg1
  let main_cst_0 : FVec F S_ .f32 := constant S_ .f32 0x7F800000#32
  let main_v5 : FVec F S1700000 .f32 := broadcastInDim S1700000 ![] bcast_S_S1700000 main_cst_0
  let main_v6 : IVec S1700000 1 := cmpf .olt main_v4 main_v5
  let main_c_1 : IVec S_ 1 := constantI S_ 1 1#1
  let main_v7 : IVec S_ 1 := (fun x v => Host.reduce IntOp.andi x v reducesTo_S1700000_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S1024x8192 : Shape := ⟨2, ![1024, 8192]⟩
abbrev S1700000 : Shape := ⟨1, ![1700000]⟩
abbrev S4096 : Shape := ⟨1, ![4096]⟩
abbrev S1700000x2 : Shape := ⟨2, ![1700000, 2]⟩
abbrev S_ : Shape := ⟨0, ![]⟩
abbrev S8192x4096 : Shape := ⟨2, ![8192, 4096]⟩
abbrev S1700000x1 : Shape := ⟨2, ![1700000, 1]⟩
abbrev S1x4096 : Shape := ⟨2, ![1, 4096]⟩
abbrev S1024x4096 : Shape := ⟨2, ![1024, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 32
  | .vmem => 9
  | .smem => 0
  | _ => 0

abbrev bufTy : (tb : Table) → Fin (tcTables nBuf tb) → BufTy
  | .hbm, ⟨0, _⟩ => ⟨S1024x8192, .f32⟩
  | .hbm, ⟨1, _⟩ => ⟨S1700000, .f32⟩
  | .hbm, ⟨2, _⟩ => ⟨S4096, .f32⟩
  | .hbm, ⟨3, _⟩ => ⟨S1700000x2, .i32⟩
  | .hbm, ⟨4, _⟩ => ⟨S_, .f32⟩
  | .hbm, ⟨5, _⟩ => ⟨S8192x4096, .f32⟩
  | .hbm, ⟨6, _⟩ => ⟨S1700000x1, .i32⟩
  | .hbm, ⟨7, _⟩ => ⟨S1700000, .i32⟩
  | .hbm, ⟨8, _⟩ => ⟨S1700000x1, .i32⟩
  | .hbm, ⟨9, _⟩ => ⟨S1700000, .i32⟩
  | .hbm, ⟨10, _⟩ => ⟨S_, .i32⟩
  | .hbm, ⟨11, _⟩ => ⟨S1700000, .i32⟩
  | .hbm, ⟨12, _⟩ => ⟨S1700000, .i1⟩
  | .hbm, ⟨13, _⟩ => ⟨S_, .i32⟩
  | .hbm, ⟨14, _⟩ => ⟨S1700000, .i32⟩
  | .hbm, ⟨15, _⟩ => ⟨S1700000, .i32⟩
  | .hbm, ⟨16, _⟩ => ⟨S1700000, .i32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S1700000x1, .i32⟩
  | .hbm, ⟨26, _⟩ => ⟨S1700000x2, .i32⟩
  | .hbm, ⟨27, _⟩ => ⟨S8192x4096, .f32⟩
  | .hbm, ⟨28, _⟩ => ⟨S1024x8192, .bf16⟩
  | .hbm, ⟨29, _⟩ => ⟨S8192x4096, .bf16⟩
  | .hbm, ⟨30, _⟩ => ⟨S1x4096, .f32⟩
  | .hbm, ⟨31, _⟩ => ⟨S1024x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192x4096 : S_.BroadcastsInDim S8192x4096 (![] : Fin 0 → Fin S8192x4096.rank)
  slices_S1700000x2_S1700000x1_0_0 : S1700000x2.Slices ![0, 0] S1700000x1
  shapeCasts_S1700000x1_S1700000 : S1700000x1.ShapeCasts S1700000
  slices_S1700000x2_S1700000x1_0_1 : S1700000x2.Slices ![0, 1] S1700000x1
  bcast_S_S1700000 : S_.BroadcastsInDim S1700000 (![] : Fin 0 → Fin S1700000.rank)
  bcast_S1700000_S1700000x1_0 : S1700000.BroadcastsInDim S1700000x1 (![0] : Fin 1 → Fin S1700000x1.rank)
  concatenates_S1700000x1_S1700000x1_S1700000x2_d1 : Shape.Concatenates [S1700000x1, S1700000x1] S1700000x2 1
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S8192x4096_S1700000x2_S1700000_n_01_01_1_wf : ScatterDims.WF S8192x4096 S1700000x2 S1700000 [] [0, 1] [0, 1] 1
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x8192.size a
  hwx0_0 : ∀ i : grid0.Coords, EltTy.bits .bf16 = 32 ∨ (Rect.block (s := S1024x8192) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x4096.size a
  hwx0_1 : ∀ i : grid0.Coords, EltTy.bits .bf16 = 32 ∨ (Rect.block (s := S8192x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x4096.size a
  hwx0_3 : ∀ i : grid0.Coords, EltTy.bits .f32 = 32 ∨ (Rect.block (s := S1024x4096) S1024x1024.size (cc0_transform_3 i) (hinb0_3 i)).WholeWords (EltTy.packing .f32)

variable [Facts₀]

def scatter_S8192x4096_S1700000x2_S1700000_n_01_01_1 : ScatterDims S8192x4096 S1700000x2 S1700000 where
  updateWindowDims := []
  insertedWindowDims := [0, 1]
  scatterDimsToOperandDims := [0, 1]
  indexVectorDim := 1
  wf := scatter_S8192x4096_S1700000x2_S1700000_n_01_01_1_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v19) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x8192 : Shape := ⟨2, ![1024, 8192]⟩
abbrev S1700000 : Shape := ⟨1, ![1700000]⟩
abbrev S4096 : Shape := ⟨1, ![4096]⟩
abbrev S1700000x2 : Shape := ⟨2, ![1700000, 2]⟩
abbrev S_ : Shape := ⟨0, ![]⟩
abbrev S8192x4096 : Shape := ⟨2, ![8192, 4096]⟩
abbrev S1700000x1 : Shape := ⟨2, ![1700000, 1]⟩
abbrev S1024x4096 : Shape := ⟨2, ![1024, 4096]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1700000, .f32⟩
  | .hbm, ⟨2, _⟩ => ⟨S4096, .f32⟩
  | .hbm, ⟨3, _⟩ => ⟨S1700000x2, .i32⟩
  | .hbm, ⟨4, _⟩ => ⟨S_, .f32⟩
  | .hbm, ⟨5, _⟩ => ⟨S8192x4096, .f32⟩
  | .hbm, ⟨6, _⟩ => ⟨S1700000x1, .i32⟩
  | .hbm, ⟨7, _⟩ => ⟨S1700000, .i32⟩
  | .hbm, ⟨8, _⟩ => ⟨S1700000x1, .i32⟩
  | .hbm, ⟨9, _⟩ => ⟨S1700000, .i32⟩
  | .hbm, ⟨10, _⟩ => ⟨S_, .i32⟩
  | .hbm, ⟨11, _⟩ => ⟨S1700000, .i32⟩
  | .hbm, ⟨12, _⟩ => ⟨S1700000, .i1⟩
  | .hbm, ⟨13, _⟩ => ⟨S_, .i32⟩
  | .hbm, ⟨14, _⟩ => ⟨S1700000, .i32⟩
  | .hbm, ⟨15, _⟩ => ⟨S1700000, .i32⟩
  | .hbm, ⟨16, _⟩ => ⟨S1700000, .i32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S1700000x1, .i32⟩
  | .hbm, ⟨26, _⟩ => ⟨S1700000x2, .i32⟩
  | .hbm, ⟨27, _⟩ => ⟨S8192x4096, .f32⟩
  | .hbm, ⟨28, _⟩ => ⟨S1024x4096, .f32⟩
  | .hbm, ⟨29, _⟩ => ⟨S1x4096, .f32⟩
  | .hbm, ⟨30, _⟩ => ⟨S1024x4096, .f32⟩
  | .hbm, ⟨31, _⟩ => ⟨S1024x4096, .f32⟩
  | .hbm, ⟨32, _⟩ => ⟨S1024x4096, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  slices_S1700000x2_S1700000x1_0_0 : S1700000x2.Slices ![0, 0] S1700000x1
  shapeCasts_S1700000x1_S1700000 : S1700000x1.ShapeCasts S1700000
  slices_S1700000x2_S1700000x1_0_1 : S1700000x2.Slices ![0, 1] S1700000x1
  bcast_S_S1700000 : S_.BroadcastsInDim S1700000 (![] : Fin 0 → Fin S1700000.rank)
  bcast_S1700000_S1700000x1_0 : S1700000.BroadcastsInDim S1700000x1 (![0] : Fin 1 → Fin S1700000x1.rank)
  concatenates_S1700000x1_S1700000x1_S1700000x2_d1 : Shape.Concatenates [S1700000x1, S1700000x1] S1700000x2 1
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  scatter_S8192x4096_S1700000x2_S1700000_n_01_01_1_wf : ScatterDims.WF S8192x4096 S1700000x2 S1700000 [] [0, 1] [0, 1] 1
  dot_S1024x8192_S8192x4096_S1024x4096_1_0_0_1_n_n_wf : DotDims.WF S1024x8192 S8192x4096 S1024x4096 [1] [0] [0] [1] [] []

variable [Facts₀]

def scatter_S8192x4096_S1700000x2_S1700000_n_01_01_1 : ScatterDims S8192x4096 S1700000x2 S1700000 where
  updateWindowDims := []
  insertedWindowDims := [0, 1]
  scatterDimsToOperandDims := [0, 1]
  indexVectorDim := 1
  wf := scatter_S8192x4096_S1700000x2_S1700000_n_01_01_1_wf
def dot_S1024x8192_S8192x4096_S1024x4096_1_0_0_1_n_n : DotDims S1024x8192 S8192x4096 S1024x4096 where
  lhsContracting := [1]
  rhsContracting := [0]
  lhsNonContracting := [0]
  rhsNonContracting := [1]
  lhsBatch := []
  rhsBatch := []
  wf := dot_S1024x8192_S8192x4096_S1024x4096_1_0_0_1_n_n_wf

class Facts : Prop extends Facts₀ where

variable [Facts]
-- ==== Proof.Pieces.lean ====
import proofs.«168685_j69827578298981_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

/-! What each of the body's three control cases leaves behind, as a value.

The body keeps a running [1024, 1024] accumulator in a scratch buffer. With `a` the [1024, 2048] block of the left
operand, `b` the [2048, 1024] block of the right operand and `acc` what the scratch held:
  * at the first step of a column block the scratch is first cleared, so it ends at `0 + a·b` (added to the zero block);
  * at every other step it ends at `acc + a·b`;
  * at the last step, moreover, the output block is `tanh (acc + a·b + bias)`, the bias row broadcast down the rows.
Each is the payload of the one store that covers the buffer, its loads reading whole buffers. -/

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle step: the scratch ends at the accumulated value plus this step's product. -/
theorem scratch_B (c : Dev nD) (i : grid0.Coords) (a2 : Memref sig .tc .vmem S1024x2048 .bf16) (h2 : a2.IsWhole)
    (a3 : Memref sig .tc .vmem S2048x1024 .bf16) (h3 : a3.IsWhole) (a4 : Memref sig .tc .vmem S1x1024 .f32) (h4 : a4.IsWhole)
    (a5 : Memref sig .tc .vmem S1024x1024 .f32) (h5 : a5.IsWhole) (a6 : Memref sig .tc .vmem S1024x1024 .f32) (h6 : a6.IsWhole)
    (hc0 : ¬cond0_0 i) (hc1 : ¬cond0_1 i)
    (x0 : Vec F S1024x2048 .bf16) (x1 : Vec F S2048x1024 .bf16) (x2 : Vec F S1x1024 .f32) (xs0 : Vec F S1024x1024 .f32) :
    sout0_B_0 c i a2 h2 a3 h3 a4 h4 a5 h5 a6 h6 hc0 hc1 x0 x1 x2 xs0 = k0_pay2 xs0 x0 x1 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz]
  simp only [View.readAt_eq_ld, h6.read_unread, h2.read_unread, h3.read_unread, View.ld_unit_zero (S := S1024x1024) hz,
    View.ld_unit_zero (S := S1024x2048) hz, View.ld_unit_zero (S := S2048x1024) hz]

/-- The first step: the scratch is cleared, read back, and ends at the zero block plus this step's product. -/
theorem scratch_A (c : Dev nD) (i : grid0.Coords) (a2 : Memref sig .tc .vmem S1024x2048 .bf16) (h2 : a2.IsWhole)
    (a3 : Memref sig .tc .vmem S2048x1024 .bf16) (h3 : a3.IsWhole) (a4 : Memref sig .tc .vmem S1x1024 .f32) (h4 : a4.IsWhole)
    (a5 : Memref sig .tc .vmem S1024x1024 .f32) (h5 : a5.IsWhole) (a6 : Memref sig .tc .vmem S1024x1024 .f32) (h6 : a6.IsWhole)
    (hc0 : cond0_0 i) (hc1 : ¬cond0_1 i)
    (x0 : Vec F S1024x2048 .bf16) (x1 : Vec F S2048x1024 .bf16) (x2 : Vec F S1x1024 .f32) :
    sout0_A_0 c i a2 h2 a3 h3 a4 h4 a5 h5 a6 h6 hc0 hc1 x0 x1 x2 = k0_pay2 (k0_pay1 (F := F)) x0 x1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x1024) hz, View.readCov_unit_zero (S := S1024x1024) _ hz]

  simp only [View.readAt_eq_ld, h2.read_unread, h3.read_unread, View.ld_unit_zero (S := S1024x1024) hz,
    View.ld_unit_zero (S := S1024x2048) hz, View.ld_unit_zero (S := S2048x1024) hz]

/-- The last step: the scratch ends as at a middle step. -/
theorem scratch_C (c : Dev nD) (i : grid0.Coords) (a2 : Memref sig .tc .vmem S1024x2048 .bf16) (h2 : a2.IsWhole)
    (a3 : Memref sig .tc .vmem S2048x1024 .bf16) (h3 : a3.IsWhole) (a4 : Memref sig .tc .vmem S1x1024 .f32) (h4 : a4.IsWhole)
    (a5 : Memref sig .tc .vmem S1024x1024 .f32) (h5 : a5.IsWhole) (a6 : Memref sig .tc .vmem S1024x1024 .f32) (h6 : a6.IsWhole)
    (hc0 : ¬cond0_0 i) (hc1 : cond0_1 i)
    (x0 : Vec F S1024x2048 .bf16) (x1 : Vec F S2048x1024 .bf16) (x2 : Vec F S1x1024 .f32) (xs0 : Vec F S1024x1024 .f32) :
    sout0_C_0 c i a2 h2 a3 h3 a4 h4 a5 h5 a6 h6 hc0 hc1 x0 x1 x2 xs0 = k0_pay2 xs0 x0 x1 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h6.read_unread, h2.read_unread, h3.read_unread, View.ld_unit_zero (S := S1024x1024) hz,
    View.ld_unit_zero (S := S1024x2048) hz, View.ld_unit_zero (S := S2048x1024) hz]

/-- The last step: the output block is the hyperbolic tangent of the final accumulator plus the bias row. -/
theorem out_C (c : Dev nD) (i : grid0.Coords) (a2 : Memref sig .tc .vmem S1024x2048 .bf16) (h2 : a2.IsWhole)
    (a3 : Memref sig .tc .vmem S2048x1024 .bf16) (h3 : a3.IsWhole) (a4 : Memref sig .tc .vmem S1x1024 .f32) (h4 : a4.IsWhole)
    (a5 : Memref sig .tc .vmem S1024x1024 .f32) (h5 : a5.IsWhole) (a6 : Memref sig .tc .vmem S1024x1024 .f32) (h6 : a6.IsWhole)
    (hc0 : ¬cond0_0 i) (hc1 : cond0_1 i)
    (x0 : Vec F S1024x2048 .bf16) (x1 : Vec F S2048x1024 .bf16) (x2 : Vec F S1x1024 .f32) (xs0 : Vec F S1024x1024 .f32) :
    out0_C_3 c i a2 h2 a3 h3 a4 h4 a5 h5 a6 h6 hc0 hc1 x0 x1 x2 xs0 = k0_pay3 (k0_pay2 xs0 x0 x1) x2 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S1024x1024) _ hz]
  simp only [View.readAt_eq_ld, h6.read_unread, h2.read_unread, h3.read_unread, h4.read_unread, View.ld_unit_zero (S := S1024x1024) hz,
    View.ld_unit_zero (S := S1024x2048) hz, View.ld_unit_zero (S := S2048x1024) hz, View.ld_unit_zero (S := S1x1024) hz]

end Cert.KernelIdeal.Pieces

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Payload.lean ====
/-
  The body's arithmetic at an index, over the extended reals.

  With `a` a [1024, 2048] block of the left operand, `b` a [2048, 1024] block of the right operand:
    * the cleared accumulator is 0 everywhere;
    * the accumulation step at (p, q) is  acc (p, q) + ∑ k < 2048, a (p, k) · b (k, q)
      (the matrix unit multiplies into a zero accumulator, so its own contribution is the bare sum);
    * the output step at (p, q) is  tanh (acc (p, q) + bias (0, q)): the [1, 1024] bias row is broadcast down the rows.
-/
import proofs.«168685_j69827578298981_1_alg».proof.Proof.Gen.KernelIdeal.Skeleton
import proofs.«168685_j69827578298981_1_alg».proof.Proof.LibPlainDot
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The cleared accumulator is zero at every index. -/
theorem cleared_apply (p q : Fin 1024) : k0_pay1 (F := Ideal) (ix2 p q) = 0 := by
  unfold k0_pay1
  rw [shapeCast_self]
  exact Ideal.ofBits_zero_f32

/-- One accumulation step at (p, q): what was there, plus the 2048 products of this step's blocks. -/
theorem step_apply (acc : Vec Ideal S1024x1024 .f32) (a : Vec Ideal S1024x2048 .bf16) (b : Vec Ideal S2048x1024 .bf16)
    (p q : Fin 1024) :
    k0_pay2 (F := Ideal) acc a b (ix2 p q) = acc (ix2 p q) + ∑ k : Fin 2048, a (ix2 p k) * b (ix2 k q) := by
  unfold k0_pay2
  rw [shapeCast_self, shapeCast_self, shapeCast_self]
  refine congrArg (fun z => acc (ix2 p q) + z) ?_
  exact Cert.Lib.matmul_zero_apply dot_S1024x2048_S2048x1024_S1024x1024_1_0_0_1_n_n.wf none a b p q

/-- The output step at (p, q): tanh of the accumulator plus the bias of column q. -/
theorem finish_apply (acc : Vec Ideal S1024x1024 .f32) (bias : Vec Ideal S1x1024 .f32) (p q : Fin 1024) :
    k0_pay3 (F := Ideal) acc bias (ix2 p q) = Ideal.tanh (acc (ix2 p q) + bias (ix2 (0 : Fin 1) q)) := by
  unfold k0_pay3
  rw [shapeCast_self]
  show Ideal.tanh (acc (ix2 p q) + broadcastTo S1024x1024 bias broadcasts_S1x1024_S1024x1024 (ix2 p q)) = _
  rw [broadcastTo_apply bias broadcasts_S1x1024_S1024x1024 (ix2 p q) (ix2 (0 : Fin 1) q) (fun a => by
    match a with
    | ⟨0, _⟩ => rfl
    | ⟨1, _⟩ => rfl)]

end Cert.KernelIdeal.Payload

end
-- ==== Proof.Weights.lean ====
/-
  The weight matrix the kernel's region finds.

  Both programs assemble the weight matrix [8192, 4096] by the same chain of operations on the same two arguments:
  the (row, column) positions are split into their two columns, negative positions are wrapped by the axis length,
  the columns are joined again, and the values are scattered — duplicates added — into a zero matrix. The kernel's
  program then converts the matrix to a narrower float format, the identity on the extended reals. So the array the
  region finds is the reference's own term for the matrix, which nothing here opens.
-/
import proofs.«168685_j69827578298981_1_alg».proof.Proof.Gen.KernelIdeal.Frame
import proofs.«168685_j69827578298981_1_alg».proof.Proof.Gen.ReferenceIdeal.Read
import Idealize.ShloMosaic.Lib.StableHlo.Run
import Idealize.ShloMosaic.Lib.ValueIdx

noncomputable section

namespace Cert.KernelIdeal.Weights

open Cert.KernelIdeal Cert.KernelIdeal.Gen Idealize.ShloMosaic Idealize.ShloMosaic.ValueIdx Idealize.ShloMosaic.TcCoe
  Idealize.SL.Sem

variable (m : (ℓ : Loc nD τ sig) → Buf (Elt Ideal) ℓ)

/-- The weight matrix: the values scattered, duplicates added, into a zero [8192, 4096] matrix — the reference's term. -/
def weights (c : Dev nD) : (⟨2, ![8192, 4096]⟩ : Shape).Idx → EReal :=
  Cert.ReferenceIdeal.Read.val_main_v18 (F := Ideal) (m ((c : Thread nD τ).loc main_arg1)) (m ((c : Thread nD τ).loc main_arg3))

set_option maxHeartbeats 4000000 in
/-- The right operand the region finds is the weight matrix: the conversion to the narrower format is the identity,
    and what it converts is, operation by operation, the reference's chain on the same two arguments. -/
theorem arr_w (c : Dev nD) :
    (V m c main_v20 : S8192x4096.Idx → EReal) = weights m c := by
  dsimp only [Gen.V, Gen.hostOps0]; after_results
  funext i
  rw [truncf_apply]
  rfl

end Cert.KernelIdeal.Weights

end
-- ==== Proof.Blocks.lean ====
/-
  The arrays the kernel's region finds, and its blocks read at an index.

  Before the region the program converts x to a narrower float format — the identity on the extended reals — and
  views the bias [4096] as a [1, 4096] row; the weight matrix it finds is the one named in the module on the weights.

  The grid is 4 × 4, point t = 4·n + j with n the column block and j the step along the contracted axis:
    * the left operand's block is rows 0…1023, columns 2048·j … 2048·j + 2047 of x;
    * the right operand's block is rows 2048·j … of the weights, columns 1024·n … 1024·n + 1023;
    * the bias block is columns 1024·n … of the bias row;
    * the output block is rows 0…1023, columns 1024·n … of the result.
-/
import proofs.«168685_j69827578298981_1_alg».proof.Proof.Gen.KernelIdeal.Frame
import proofs.«168685_j69827578298981_1_alg».proof.Proof.Weights
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.ValueIdx Idealize.ShloMosaic.TcCoe
  Idealize.SL.Sem

variable (m : (ℓ : Loc nD τ sig) → Buf (Elt Ideal) ℓ)

/-- The block indices of the four windows at point `t = 4·n + j`: (0, j), (j, n), (0, n), (0, n). -/
theorem idx_facts : ∀ t : Fin cfg0.N,
    win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4
    ∧ win0_3.index t (0 : Fin 2) = 0 ∧ win0_3.index t (1 : Fin 2) = t.val / 4 :=
  (by decide +kernel : ∀ t : Fin grid0.N, _)

/-- The left operand the region finds is x. -/
theorem arr_x (c : Dev nD) :
    (V m c main_v19 : S1024x8192.Idx → EReal) = m ((c : Thread nD τ).loc main_arg0) := by
  dsimp only [Gen.V, Gen.hostOps0]; after_results; rfl

/-- The bias row the region finds, at (0, u), is the bias at u. -/
theorem arr_b (c : Dev nD) (u : Fin 4096) :
    (V m c main_v21 : S1x4096.Idx → EReal) (ix2 (0 : Fin 1) u) = m ((c : Thread nD τ).loc main_arg2) (ix1 u) := by
  have e : (V m c main_v21 : S1x4096.Idx → EReal)
      = shapeCast S1x4096 (m ((c : Thread nD τ).loc main_arg2)) shapeCasts_S4096_S1x4096 := by
    dsimp only [Gen.V, Gen.hostOps0]; after_results; rfl
  rewrite [e]
  refine shapeCast_apply (s := S4096) (t := S1x4096) _ _ _ _ ?_
  show (S4096.rowMajor (ix1 u)).val = (S1x4096.rowMajor (ix2 (0 : Fin 1) u)).val
  rw [Shape.rowMajor_val_two, Shape.rowMajor_val_one]
  show u.val = 0 * 4096 + u.val
  omega

/-- The same three facts, for the arrays named as the windows name them. -/
theorem win_x (c : Dev nD) :
    (V m c (Pipeline.arrRef spec0 0) : S1024x8192.Idx → EReal) = m ((c : Thread nD τ).loc main_arg0) := arr_x m c

theorem win_w (c : Dev nD) :
    (V m c (Pipeline.arrRef spec0 1) : S8192x4096.Idx → EReal) = Weights.weights m c := Weights.arr_w m c

theorem win_b (c : Dev nD) (u : Fin 4096) :
    (V m c (Pipeline.arrRef spec0 2) : S1x4096.Idx → EReal) (ix2 (0 : Fin 1) u)
      = m ((c : Thread nD τ).loc main_arg2) (ix1 u) := arr_b m c u

/-- Reading an array through a window's block is reading the array at the block's embedded index (the array a variable). -/
theorem read_x (A : S1024x8192.Idx → EReal) (t : Fin cfg0.N) (y : S1024x2048.Idx) :
    (((cfg0.win 0).blk t).view.read (Elt Ideal) A : S1024x2048.Idx → EReal) y = A (((cfg0.win 0).blk t).view.emb y) := rfl

theorem read_w (A : S8192x4096.Idx → EReal) (t : Fin cfg0.N) (y : S2048x1024.Idx) :
    (((cfg0.win 1).blk t).view.read (Elt Ideal) A : S2048x1024.Idx → EReal) y = A (((cfg0.win 1).blk t).view.emb y) := rfl

theorem read_b (A : S1x4096.Idx → EReal) (t : Fin cfg0.N) (y : S1x1024.Idx) :
    (((cfg0.win 2).blk t).view.read (Elt Ideal) A : S1x1024.Idx → EReal) y = A (((cfg0.win 2).blk t).view.emb y) := rfl

/-- The left block at point `t`, at (p, k): x at (p, 2048·j + k). -/
theorem blk_x (c : Dev nD) (t : Fin cfg0.N) (p : Fin 1024) (k : Fin 2048) (h : 2048 * (t.val % 4) + k.val < 8192) :
    (iblk m c 0 t : Vec Ideal S1024x2048 .bf16) (ix2 p k)
      = m ((c : Thread nD τ).loc main_arg0) (ix2 p ⟨2048 * (t.val % 4) + k.val, h⟩) := by
  obtain ⟨e00, e01, -⟩ := idx_facts t
  have hemb : ((cfg0.win 0).blk t).view.emb (ix2 p k) = ix2 p ⟨2048 * (t.val % 4) + k.val, h⟩ :=
    funext fun a => Fin.ext (by
      match a with
      | ⟨0, _⟩ => show win0_0.index t (0 : Fin 2) * 1024 + 1 * p.val = p.val; rw [e00]; omega
      | ⟨1, _⟩ => show win0_0.index t (1 : Fin 2) * 2048 + 1 * k.val = 2048 * (t.val % 4) + k.val; rw [e01]; omega)
  unfold iblk
  refine (read_x (V m c (Pipeline.arrRef spec0 0)) t (ix2 p k)).trans ?_
  refine (congrFun (win_x m c) _).trans ?_
  exact congrArg (m ((c : Thread nD τ).loc main_arg0)) hemb

/-- The right block at point `t`, at (k, q): the weights at (2048·j + k, 1024·n + q). -/
theorem blk_w (c : Dev nD) (t : Fin cfg0.N) (k : Fin 2048) (q : Fin 1024) (h : 2048 * (t.val % 4) + k.val < 8192)
    (h' : 1024 * (t.val / 4) + q.val < 4096) :
    (iblk m c 1 t : Vec Ideal S2048x1024 .bf16) (ix2 k q)
      = Weights.weights m c (ix2 ⟨2048 * (t.val % 4) + k.val, h⟩ ⟨1024 * (t.val / 4) + q.val, h'⟩) := by
  obtain ⟨-, -, e10, e11, -⟩ := idx_facts t
  have hemb : ((cfg0.win 1).blk t).view.emb (ix2 k q)
      = ix2 ⟨2048 * (t.val % 4) + k.val, h⟩ ⟨1024 * (t.val / 4) + q.val, h'⟩ :=
    funext fun a => Fin.ext (by
      match a with
      | ⟨0, _⟩ => show win0_1.index t (0 : Fin 2) * 2048 + 1 * k.val = 2048 * (t.val % 4) + k.val; rw [e10]; omega
      | ⟨1, _⟩ => show win0_1.index t (1 : Fin 2) * 1024 + 1 * q.val = 1024 * (t.val / 4) + q.val; rw [e11]; omega)
  unfold iblk
  refine (read_w (V m c (Pipeline.arrRef spec0 1)) t (ix2 k q)).trans ?_
  refine (congrFun (win_w m c) _).trans ?_
  exact congrArg (Weights.weights m c) hemb

/-- The bias block at point `t`, at (0, q): the bias at 1024·n + q. -/
theorem blk_b (c : Dev nD) (t : Fin cfg0.N) (q : Fin 1024) (h' : 1024 * (t.val / 4) + q.val < 4096) :
    (iblk m c 2 t : Vec Ideal S1x1024 .f32) (ix2 (0 : Fin 1) q)
      = m ((c : Thread nD τ).loc main_arg2) (ix1 ⟨1024 * (t.val / 4) + q.val, h'⟩) := by
  obtain ⟨-, -, -, -, e20, e21, -⟩ := idx_facts t
  have hemb : ((cfg0.win 2).blk t).view.emb (ix2 (0 : Fin 1) q)
      = ix2 (0 : Fin 1) ⟨1024 * (t.val / 4) + q.val, h'⟩ :=
    funext fun a => Fin.ext (by
      match a with
      | ⟨0, _⟩ => show win0_2.index t (0 : Fin 2) * 1 + 1 * 0 = 0; rw [e20]
      | ⟨1, _⟩ => show win0_2.index t (1 : Fin 2) * 1024 + 1 * q.val = 1024 * (t.val / 4) + q.val; rw [e21]; omega)
  unfold iblk
  refine (read_b (V m c (Pipeline.arrRef spec0 2)) t (ix2 (0 : Fin 1) q)).trans ?_
  refine (congrArg (V m c (Pipeline.arrRef spec0 2)) hemb).trans ?_
  exact win_b m c ⟨1024 * (t.val / 4) + q.val, h'⟩

end Cert.KernelIdeal.Blocks

end
-- ==== Proof.LibBlockSum.lean ====
/-
  A sum over the first B·(j+1) natural numbers, taken block by block: the terms before block j, plus the B terms of
  block j. This is how a contraction over a long axis is accumulated in pieces of width B; over a commutative monoid
  (the extended reals under addition are one) the pieces add up to the whole sum, whatever the values.
-/
import Mathlib.Algebra.BigOperators.Fin
import Mathlib.Algebra.BigOperators.Intervals

namespace Cert.Lib.BlockSum

open Finset

variable {M : Type*} [AddCommMonoid M]

/-- The terms before block `j`, plus the `B` terms of block `j`, are the terms before block `j + 1`. -/
theorem sum_range_block (f : ℕ → M) (B j : ℕ) :
    ∑ k ∈ range (B * j), f k + ∑ k : Fin B, f (B * j + k.val) = ∑ k ∈ range (B * (j + 1)), f k := by
  rw [Nat.mul_succ, Finset.sum_range_add, Finset.sum_range (fun k => f (B * j + k))]

/-- Block 0 alone: its `B` terms are the terms before block 1. -/
theorem sum_first_block (f : ℕ → M) (B : ℕ) :
    ∑ k : Fin B, f (B * 0 + k.val) = ∑ k ∈ range (B * (0 + 1)), f k := by
  rw [← sum_range_block f B 0, Nat.mul_zero, Finset.range_zero, Finset.sum_empty, zero_add]

end Cert.Lib.BlockSum
-- ==== Proof.Accum.lean ====
/-
  What the accumulator holds after each grid point.

  Fix a row p < 1024 and a column q < 1024 of the accumulator. At point t = 4·n + j the output column is
  u = 1024·n + q, and the accumulator holds the partial sum

      ∑ k < 2048·(j + 1),  x (p, k) · w (k, u)

  of the contraction: the first step of a column block (j = 0) starts from the cleared accumulator and adds the first
  2048 products; every later step adds the next 2048 to what the step before left. The proof is an induction on the
  point; adding one block of products to a partial sum is the block-sum law for sums over ranges.
-/
import proofs.«168685_j69827578298981_1_alg».proof.Proof.Pieces
import proofs.«168685_j69827578298981_1_alg».proof.Proof.Payload
import proofs.«168685_j69827578298981_1_alg».proof.Proof.Blocks
import proofs.«168685_j69827578298981_1_alg».proof.Proof.LibBlockSum

noncomputable section

namespace Cert.KernelIdeal.Accum

open Cert.KernelIdeal Cert.KernelIdeal.Gen Idealize.ShloMosaic Idealize.ShloMosaic.ValueIdx Idealize.ShloMosaic.TcCoe
  Idealize.SL.Sem

variable (m : (ℓ : Loc nD τ sig) → Buf (Elt Ideal) ℓ)

/-- The argument x, as an array of extended reals. -/
abbrev xArr (c : Dev nD) : (⟨2, ![1024, 8192]⟩ : Shape).Idx → EReal := m ((c : Thread nD τ).loc main_arg0)

/-- The product x (p, k) · w (k, u), as a function of natural numbers k and u (zero outside the arrays). -/
def prodAt (c : Dev nD) (p : Fin 1024) (u k : ℕ) : EReal :=
  if h : k < 8192 ∧ u < 4096 then
    xArr m c (ix2 p ⟨k, h.1⟩) * Weights.weights m c (ix2 ⟨k, h.1⟩ ⟨u, h.2⟩)
  else 0

/-- The partial sum the accumulator holds at (p, q) after point `n`: the products below 2048·(n mod 4 + 1), for the
    output column 1024·(n / 4) + q. -/
def upTo (c : Dev nD) (n : ℕ) (p q : Fin 1024) : EReal :=
  ∑ k ∈ Finset.range (2048 * (n % 4 + 1)), prodAt m c p (1024 * (n / 4) + q.val) k

/-- The 2048 products of the blocks at point `t` are the products of block `t mod 4` of the contraction. -/
theorem blockProducts (c : Dev nD) (t : Fin cfg0.N) (p q : Fin 1024)
    (a : Vec Ideal S1024x2048 .bf16) (b : Vec Ideal S2048x1024 .bf16) (ha : a = iblk m c 0 t) (hb : b = iblk m c 1 t) :
    ∑ k : Fin 2048, a (ix2 p k) * b (ix2 k q)
      = ∑ k : Fin 2048, prodAt m c p (1024 * (t.val / 4) + q.val) (2048 * (t.val % 4) + k.val) := by
  have hN : t.val < 16 := lt_of_lt_of_eq t.isLt (show cfg0.N = 16 from N_0)
  subst ha hb
  refine Finset.sum_congr rfl fun k _ => ?_
  have h1 : 2048 * (t.val % 4) + k.val < 8192 := by have := k.isLt; omega
  have h2 : 1024 * (t.val / 4) + q.val < 4096 := by have := q.isLt; omega
  rewrite [Blocks.blk_x m c t p k h1, Blocks.blk_w m c t k q h1 h2]
  unfold prodAt
  rw [dif_pos ⟨h1, h2⟩]

/-- One accumulation step over the partial sum of the point before gives this point's partial sum. -/
theorem step_upTo (c : Dev nD) (t : Fin cfg0.N) (h0 : ¬t.val % 4 = 0) (acc : Vec Ideal S1024x1024 .f32)
    (hacc : ∀ p q : Fin 1024, acc (ix2 p q) = upTo m c (t.val - 1) p q) (p q : Fin 1024) :
    k0_pay2 (F := Ideal) acc (iblk m c 0 t) (iblk m c 1 t) (ix2 p q) = upTo m c t.val p q := by
  have hN : t.val < 16 := lt_of_lt_of_eq t.isLt (show cfg0.N = 16 from N_0)
  refine (Payload.step_apply acc (iblk m c 0 t) (iblk m c 1 t) p q).trans ?_
  rewrite [hacc, blockProducts m c t p q _ _ rfl rfl]
  unfold upTo
  have e1 : (t.val - 1) % 4 + 1 = t.val % 4 := by omega
  have e2 : (t.val - 1) / 4 = t.val / 4 := by omega
  rewrite [e1, e2]
  exact Lib.BlockSum.sum_range_block _ 2048 (t.val % 4)

/-- The first step of a column block: the cleared accumulator plus the first block of products. -/
theorem first (c : Dev nD) (t : Fin cfg0.N) (h0 : t.val % 4 = 0) (p q : Fin 1024) :
    (outsAt0 m c t.val t.isLt).2 (ix2 p q) = upTo m c t.val p q := by
  have h1 : ¬t.val % 4 = 3 := by omega
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
  refine (Payload.step_apply _ (iblk m c 0 t) (iblk m c 1 t) p q).trans ?_
  rewrite [Payload.cleared_apply, zero_add, blockProducts m c t p q _ _ rfl rfl]
  unfold upTo
  rewrite [h0]
  exact Lib.BlockSum.sum_first_block _ 2048

/-- A later step: the step before's partial sum plus this block of products. -/
theorem next (c : Dev nD) (t : Fin cfg0.N) (h0 : ¬t.val % 4 = 0)
    (ih : ∀ p q : Fin 1024, (outsAt0 m c (t.val - 1) (Nat.lt_of_le_of_lt (Nat.sub_le _ _) t.isLt)).2 (ix2 p q) = upTo m c (t.val - 1) p q) (p q : Fin 1024) :
    (outsAt0 m c t.val t.isLt).2 (ix2 p q) = upTo m c t.val p q := by
  by_cases h1 : t.val % 4 = 3
  · rw [outsAt0_C m c t h0 h1]
    dsimp only
    refine (congrFun (Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
    exact step_upTo m c t h0 _ ih p q
  · rw [outsAt0_B m c t h0 h1]
    dsimp only
    refine (congrFun (Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 p q)).trans ?_
    exact step_upTo m c t h0 _ ih p q

/-- After every point the accumulator holds that point's partial sum. -/
theorem scratch_eq (c : Dev nD) : ∀ (n : ℕ) (h : n < cfg0.N) (p q : Fin 1024),
    (outsAt0 m c n h).2 (ix2 p q) = upTo m c n p q
  | 0, h => first m c ⟨0, h⟩ rfl
  | n + 1, h => by
    by_cases h0 : (n + 1) % 4 = 0
    · exact first m c ⟨n + 1, h⟩ h0
    · exact next m c ⟨n + 1, h⟩ h0 (scratch_eq c n (Nat.lt_of_succ_lt h))

/-- After the last step of a column block the partial sum is the whole contraction. -/
theorem upTo_last (c : Dev nD) (n : ℕ) (h3 : n % 4 = 3) (p q : Fin 1024) (hu : 1024 * (n / 4) + q.val < 4096) :
    upTo m c n p q = ∑ k : Fin 8192, xArr m c (ix2 p k)
      * Weights.weights m c (ix2 k ⟨1024 * (n / 4) + q.val, hu⟩) := by
  unfold upTo
  rewrite [h3]
  show ∑ k ∈ Finset.range 8192, prodAt m c p (1024 * (n / 4) + q.val) k = _
  rewrite [Finset.sum_range]
  refine Finset.sum_congr rfl fun k _ => ?_
  unfold prodAt
  rw [dif_pos ⟨k.isLt, hu⟩]

end Cert.KernelIdeal.Accum

end
-- ==== Proof.Spec.lean ====
/-
  What both programs compute, as one function of the arrays, over the extended reals:

      out (p, u) = tanh ( ∑ k, x (p, k) · w (k, u)  +  b u )        p < 1024, k < 8192, u < 4096

  — a dense layer: the product of x [1024, 8192] with the weight matrix w [8192, 4096], a bias per output column, and
  the hyperbolic tangent. The weight matrix is itself assembled from a list of values scattered (duplicates added) into
  a zero matrix; both programs build it by the same operations, so here it is simply an array `w`.
-/
import Idealize.ShloMosaic.Lib.ValueIdx
import Idealize.ShloMosaic.PureOps.Ideal

noncomputable section

namespace Cert.Spec

open Idealize.ShloMosaic Idealize.ShloMosaic.ValueIdx

/-- The dense layer with a tanh activation, index by index. -/
def denseTanh (x : (⟨2, ![1024, 8192]⟩ : Shape).Idx → EReal) (w : (⟨2, ![8192, 4096]⟩ : Shape).Idx → EReal)
    (b : (⟨1, ![4096]⟩ : Shape).Idx → EReal) : (⟨2, ![1024, 4096]⟩ : Shape).Idx → EReal :=
  fun i => Ideal.tanh ((∑ k : Fin 8192, x (ix2 (i 0) k) * w (ix2 k (i 1))) + b (ix1 (i 1)))

theorem denseTanh_apply (x : (⟨2, ![1024, 8192]⟩ : Shape).Idx → EReal) (w : (⟨2, ![8192, 4096]⟩ : Shape).Idx → EReal)
    (b : (⟨1, ![4096]⟩ : Shape).Idx → EReal) (p : Fin 1024) (u : Fin 4096) :
    denseTanh x w b (ix2 p u) = Ideal.tanh ((∑ k : Fin 8192, x (ix2 p k) * w (ix2 k u)) + b (ix1 u)) := rfl

end Cert.Spec

end
-- ==== Proof.Final.lean ====
/-
  The result array after the kernel's run is the dense layer.

  The output block of column block n is written back once, after the last of its four steps (points 4·n + 3). There
  the accumulator holds the whole contraction, so the block is tanh (∑ k, x (p, k) · w (k, 1024·n + q) + b (1024·n + q))
  at (p, q): the dense layer read through the block. The four blocks written back tile the [1024, 4096] result.
-/
import proofs.«168685_j69827578298981_1_alg».proof.Proof.Accum
import proofs.«168685_j69827578298981_1_alg».proof.Proof.Spec
import proofs.«168685_j69827578298981_1_alg».proof.Proof.Gen.KernelIdeal.Value

noncomputable section

namespace Cert.KernelIdeal.Final

open Cert.KernelIdeal Cert.KernelIdeal.Gen Idealize.ShloMosaic Idealize.ShloMosaic.ValueIdx Idealize.ShloMosaic.TcCoe
  Idealize.SL.Sem
open Idealize.ShloMosaic.Pipeline (Dat)

variable (m : (ℓ : Loc nD τ sig) → Buf (Elt Ideal) ℓ) (ρ : Dev nD → PrngReg)

/-- The dense layer of the launch arrays: what the result array ends holding. -/
abbrev result (c : Dev nD) : (⟨2, ![1024, 4096]⟩ : Shape).Idx → EReal :=
  Cert.Spec.denseTanh (m ((c : Thread nD τ).loc main_arg0)) (Weights.weights m c) (m ((c : Thread nD τ).loc main_arg2))

/-- The output block at a last step, at (p, q): the dense layer at (p, 1024·n + q). -/
theorem out_apply (c : Dev nD) (t : Fin cfg0.N) (h0 : ¬t.val % 4 = 0) (h1 : t.val % 4 = 3) (p q : Fin 1024)
    (hu : 1024 * (t.val / 4) + q.val < 4096) :
    (outsAt0 m c t.val t.isLt).1 (ix2 p q) = result m c (ix2 p ⟨1024 * (t.val / 4) + q.val, hu⟩) := by
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
  refine (Payload.finish_apply _ (iblk m c 2 t) p q).trans ?_
  rewrite [Accum.step_upTo m c t h0 _ (Accum.scratch_eq m c (t.val - 1) _) p q, Accum.upTo_last m c t.val h1 p q hu,
    Blocks.blk_b m c t q hu]
  exact (Cert.Spec.denseTanh_apply (m ((c : Thread nD τ).loc main_arg0)) (Weights.weights m c)
    (m ((c : Thread nD τ).loc main_arg2)) p ⟨1024 * (t.val / 4) + q.val, hu⟩).symm

/-- What a writing-back point writes is the dense layer read through the point's block. -/
theorem flushed_eq (c : Dev nD) (t : Fin cfg0.N) (hf : (cfg0.win 3).flush t = true) :
    (dats m 0 c).flushed 3 t = ((cfg0.win 3).blk t).view.read (Elt Ideal) (result m c) := by
  have hN : t.val < 16 := lt_of_lt_of_eq t.isLt (show cfg0.N = 16 from N_0)
  have h1 : t.val % 4 = 3 := (flush0_3 t).mp hf
  have h0 : ¬t.val % 4 = 0 := by omega
  obtain ⟨-, -, -, -, -, -, e30, e31⟩ := Blocks.idx_facts t
  show (cfg0.win 3).cut (grid0.coords t) ((dats m 0 c).after 3 t) = _
  rw [after0_3]
  funext y
  obtain ⟨p, q, rfl⟩ : ∃ (p q : Fin 1024), y = ix2 p q := ⟨y 0, y 1, eq_ix2 y⟩
  have hu : 1024 * (t.val / 4) + q.val < 4096 := by have := q.isLt; omega
  rewrite [View.read_apply]
  show (outsAt0 m c t.val t.isLt).1 (ix2 p q) = result m c (((cfg0.win 3).blk t).view.emb (ix2 p q))
  rewrite [out_apply m c t h0 h1 p q hu]
  refine congrArg (result m c) (funext fun a => Fin.ext ?_)
  match a with
  | ⟨0, _⟩ => show p.val = win0_3.index t (0 : Fin 2) * 1024 + 1 * p.val; rw [e30]; omega
  | ⟨1, _⟩ => show 1024 * (t.val / 4) + q.val = win0_3.index t (1 : Fin 2) * 1024 + 1 * q.val; rw [e31]; omega

/-- An index of the result is in point `t`'s block iff each coordinate is in the block's range on its axis. -/
theorem mem_blk (t : Fin cfg0.N) (i : S1024x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v22).slice (win0_3.rect t)).set ↔ _
  rw [View.set_slice_whole, Rect.mem_set_unit]
  exact Iff.rfl

/-- Column u of the result lies in the block written back at point 4·(u / 1024) + 3. -/
theorem cover (i : S1024x4096.Idx) :
    ∃ t : Fin cfg0.N, (cfg0.win 3).flush t = true ∧ i ∈ ((cfg0.win 3).blk t).view.set := by
  have hi0 : (i 0).val < 1024 := (i 0).isLt
  have hi1 : (i 1).val < 4096 := (i 1).isLt
  have htn : 4 * ((i 1).val / 1024) + 3 < cfg0.N := by rw [show cfg0.N = 16 from N_0]; omega
  obtain ⟨-, -, -, -, -, -, e30, e31⟩ := Blocks.idx_facts ⟨4 * ((i 1).val / 1024) + 3, htn⟩
  dsimp only at e30 e31
  refine ⟨⟨4 * ((i 1).val / 1024) + 3, htn⟩, (flush0_3 _).mpr (by dsimp only; omega), ?_⟩
  rw [mem_blk]
  intro a
  match a with
  | ⟨0, _⟩ =>
    show win0_3.index ⟨4 * ((i 1).val / 1024) + 3, htn⟩ (0 : Fin 2) * 1024 ≤ (i 0).val
      ∧ (i 0).val < win0_3.index ⟨4 * ((i 1).val / 1024) + 3, htn⟩ (0 : Fin 2) * 1024 + 1024
    rw [e30]; omega
  | ⟨1, _⟩ =>
    show win0_3.index ⟨4 * ((i 1).val / 1024) + 3, htn⟩ (1 : Fin 2) * 1024 ≤ (i 1).val
      ∧ (i 1).val < win0_3.index ⟨4 * ((i 1).val / 1024) + 3, htn⟩ (1 : Fin 2) * 1024 + 1024
    rw [e31]; omega

/-- The result array after the run. -/
theorem final (c : Dev nD) : (dats m 0 c).arrAt 3 cfg0.N = result m c :=
  (dats m 0 c).arrAt_eq_of_cover 3 (result m c) (flushed_eq m c) cover

/-- The kernel's run, read: the result array at the dense layer of the launch arrays, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Final

end
-- ==== Proof.RefSpec.lean ====
/-
  The reference's result is the dense layer: its matrix product read at (p, u) is the sum over k of x (p, k) · w (k, u),
  the bias is broadcast along the rows, and the host's tanh is the extended reals' tanh. The weight matrix stays the
  unopened result of the reference's scatter.
-/
import proofs.«168685_j69827578298981_1_alg».proof.Proof.Gen.ReferenceIdeal.Read
import proofs.«168685_j69827578298981_1_alg».proof.Proof.Spec

noncomputable section

namespace Cert.ReferenceIdeal.RefSpec

open Cert.ReferenceIdeal Cert.ReferenceIdeal.Read Idealize.ShloMosaic Idealize.ShloMosaic.ValueIdx

theorem result_eq (x0 : (⟨S1024x8192, .f32⟩ : BufTy).Contents (Elt Ideal)) (x1 : (⟨S1700000, .f32⟩ : BufTy).Contents (Elt Ideal))
    (x2 : (⟨S4096, .f32⟩ : BufTy).Contents (Elt Ideal)) (x3 : (⟨S1700000x2, .i32⟩ : BufTy).Contents (Elt Ideal)) :
    val_main_v23 (F := Ideal) x0 x1 x2 x3 = Cert.Spec.denseTanh x0 (val_main_v18 (F := Ideal) x1 x3) x2 := by
  funext i
  obtain ⟨p, u, rfl⟩ : ∃ (p : Fin 1024) (u : Fin 4096), i = ix2 p u := ⟨i 0, i 1, eq_ix2 i⟩
  have el : ∀ k : Fin 8192, lidx_main_v19 (ix2 p u) k = ix2 p k := fun k =>
    funext fun a => Fin.ext (by match a with | ⟨0, _⟩ => rfl | ⟨1, _⟩ => rfl)
  have er : ∀ k : Fin 8192, ridx_main_v19 (ix2 p u) k = ix2 k u := fun k =>
    funext fun a => Fin.ext (by match a with | ⟨0, _⟩ => rfl | ⟨1, _⟩ => rfl)
  have eb : idx_main_v20 (idx_main_v21 (ix2 p u)) = ix1 u :=
    funext fun a => Fin.ext (by match a with | ⟨0, _⟩ => rfl)
  rw [val_main_v23_apply, val_main_v22_apply, val_main_v19_apply, val_main_v21_apply, val_main_v20_apply,
    Cert.Spec.denseTanh_apply]
  simp only [el, er, eb, Ideal.hostUnary_tanh_def, Ideal.addf_def]

end Cert.ReferenceIdeal.RefSpec

end
-- ==== Proof.lean ====
/-
  A dense layer with a tanh activation: out = tanh (x · W + b), x [1024, 8192], W [8192, 4096], b [4096], where W is
  assembled from 1,700,000 values scattered (duplicates added) into a zero matrix at given (row, column) positions.

  The kernel computes the product on a 4 × 4 grid: for each of the four column blocks of 1024 output columns it runs
  four steps along the contracted axis, each adding the product of a [1024, 2048] block of x with a [2048, 1024] block
  of W to an accumulator that the first step clears; the last step adds the bias row and applies tanh. The reference
  computes the whole product at once. Over the extended reals the two agree: a narrower float format is the identity,
  the accumulator after step j holds the partial sum of the first 2048·(j + 1) products, and a sum taken block by block
  is the whole sum — addition of extended reals is commutative and associative, so no finiteness is needed. Both
  programs assemble W by the same operations on the same two arguments, so W is carried as one unopened array.

  The kernel's frames are the generated ones; the reference's frame is its run; the idealization rewrote nothing.
-/
import proofs.«168685_j69827578298981_1_alg».proof.Defs
import proofs.«168685_j69827578298981_1_alg».proof.Proof.Gen.Kernel
import proofs.«168685_j69827578298981_1_alg».proof.Proof.Gen.Kernel.Skeleton
import proofs.«168685_j69827578298981_1_alg».proof.Proof.Gen.Kernel.Launch
import proofs.«168685_j69827578298981_1_alg».proof.Proof.Gen.Kernel.Points
import proofs.«168685_j69827578298981_1_alg».proof.Proof.Gen.Kernel.Frame
import proofs.«168685_j69827578298981_1_alg».proof.Proof.Gen.KernelIdeal
import proofs.«168685_j69827578298981_1_alg».proof.Proof.Gen.KernelIdeal.Skeleton
import proofs.«168685_j69827578298981_1_alg».proof.Proof.Gen.KernelIdeal.Launch
import proofs.«168685_j69827578298981_1_alg».proof.Proof.Gen.KernelIdeal.Points
import proofs.«168685_j69827578298981_1_alg».proof.Proof.Gen.KernelIdeal.Frame
import proofs.«168685_j69827578298981_1_alg».proof.Proof.Gen.ReferenceIdeal
import proofs.«168685_j69827578298981_1_alg».proof.Proof.Gen.Pre_finite_inputs
import proofs.«168685_j69827578298981_1_alg».proof.Proof.Gen.KernelIdeal.Value
import proofs.«168685_j69827578298981_1_alg».proof.Proof.Gen.ReferenceIdeal.Run
import proofs.«168685_j69827578298981_1_alg».proof.Proof.Gen.ReferenceIdeal.Read
import proofs.«168685_j69827578298981_1_alg».proof.Proof.Final
import proofs.«168685_j69827578298981_1_alg».proof.Proof.RefSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the dense layer of the (agreeing) arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefSpec.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
